-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S800000 32) (main_arg2 : IVec S800000 32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 48
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S50000x1, .f32⟩
  | .hbm, ⟨46, _⟩ => ⟨S1x128, .f32⟩
  | .hbm, ⟨47, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_6 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_7 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v25) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩

abbrev nBuf : Space → Nat
  | .hbm => 52
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v10 : Ref sig .tc := ⟨.hbm, 25, rfl⟩
abbrev main_cst_5 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_6 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_7 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibKeepdims.lean ====
/-
  A row statistic kept as a column, and a [1, 1, a, b] block seen as a matrix.

  A kernel that works on one [a, b] tile of a [1, 1, a, b] block drops the two leading unit axes on the way in and
  puts them back on the way out; a per-row statistic kept with a trailing unit axis ([a, 1]) is spread along the
  rows to [a, b] by a broadcast; and a sum over the last axis of an [a, b] array, read at row r, is the sum of that
  row's entries.  Each is read here at explicit coordinates.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An [a, 1] column spread along the rows to [a, b], read at (p, c): the column's entry p. -/
theorem column_broadcast_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1, a, b] block seen as an [a, b] matrix, read at (i, j): the block's entry (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] matrix put back as a [1, 1, a, b] block, read at (u, v, i, j): the matrix's entry (i, j). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- Over the extended reals, the sum over the last axis of an [a, b] array, read at row r, is the sum over the
    row's b entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext c
  apply Fin.ext
  match c with
  | ⟨0, _⟩ => rfl
  | ⟨1, _⟩ => rfl

end Cert.Keepdims
-- ==== Proof.Payload.lean ====
/-
  The kernel body's stored value, read at one entry of a block.

  At a grid point the body loads a [5000, 128] block `A` of the aggregate, the whole [128, 128] matrix `W`, the
  [5000, 1] column `n` of the block's row scales and the [1, 128] bias row `b`; it multiplies `A` by `W` into a
  zero accumulator, scales each row of the product by its entry of `n`, adds the bias row, and stores the result.
  A change of float format is the identity on the extended reals, so at row `p` and column `j` the stored value is

      (∑ₖ A[p, k] · W[k, j]) · n[p, 0] + b[0, j].
-/
import proofs.«139861_j44487271252060_2_alg».proof.Proof.Gen.KernelIdeal.Skeleton
import proofs.«139861_j44487271252060_2_alg».proof.Proof.LibKeepdims
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The product's left operand index at output entry `i`: row coordinate from `i`. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- Its column coordinate is the contraction index. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- The right operand's row coordinate is the contraction index. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- Its column coordinate comes from `i`. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The block product into a zero accumulator, at `(p, j)`: `∑ₖ X[p, k] · Y[k, j]`. -/
theorem product_apply {φ₁ φ₂ : FTy} (X : FVec Ideal S5000x128 φ₁) (Y : FVec Ideal S128x128 φ₂) (p : Fin 5000) (j : Fin 128) :
    FloatOps.matmul dot_S5000x128_S128x128_S5000x128_1_0_0_1_n_n none X Y (constant (F := Ideal) S5000x128 .f32 0x00000000#32) (ix2 p j)
      = ∑ k : Fin 128, X (ix2 p k) * Y (ix2 k j) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p j) ((ValueIdx.contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S5000x128_S128x128_S5000x128_1_0_0_1_n_n.rhsIdx (ix2 p j) ((ValueIdx.contrEquiv1 dot_S5000x128_S128x128_S5000x128_1_0_0_1_n_n 128 rfl rfl).symm k) = ix2 k j :=
    funext fun a => Fin.ext (by
      match a with
      | ⟨0, _⟩ => exact (rhs_row _ _).trans hk
      | ⟨1, _⟩ => exact rhs_col _ _)
  rw [el, er]

/-- The stored value at `(p, j)`: the product's entry, scaled by the row's entry of the scale column, plus the
    bias row's entry. -/
theorem pay_apply (A : Vec Ideal S5000x128 .f32) (W : Vec Ideal S128x128 .f32) (n : Vec Ideal S5000x1 .f32) (b : Vec Ideal S1x128 .f32)
    (p : Fin 5000) (j : Fin 128) :
    k0_pay1 (F := Ideal) A W n b (ix2 p j)
      = (∑ k : Fin 128, A (ix2 p k) * W (ix2 k j)) * n (ix2 p (0 : Fin 1)) + b (ix2 (0 : Fin 1) j) := by
  unfold k0_pay1
  simp only [shapeCast_self]
  rw [addf_apply, mulf_apply]
  simp only [matmul]
  rw [product_apply, Cert.Keepdims.column_broadcast_apply, broadcastTo_1b_ab_apply]
  rfl

end Cert.KernelIdeal.Payload

end
-- ==== Proof.KernelBlocks.lean ====
/-
  The kernel's output array, from its blocks.

  The grid has ten points.  Point `t` is given rows `5000 t … 5000 t + 4999` of the aggregate and of the column of
  row scales, and the whole of `W` and of the bias row, and writes back rows `5000 t … 5000 t + 4999` of the output.
  So entry `(r, j)` of the output is written by the point `r / 5000`, from row `r` of the aggregate and entry `r` of
  the scale column: the output array ends holding, at every `(r, j)`,

      (∑ₖ agg[r, k] · W[k, j]) · scale[r, 0] + bias[0, j],

  the arrays being those the region finds when it is entered.
-/
import proofs.«139861_j44487271252060_2_alg».proof.Proof.Gen.KernelIdeal.Value
import proofs.«139861_j44487271252060_2_alg».proof.Proof.Payload

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Entry `(r, j)` of the row-scaled product with bias, of an aggregate `A`, a scale column `n`, a matrix `W` and a
    bias row `b`. -/
def entry (A : S50000x128.Idx → EReal) (n : S50000x1.Idx → EReal) (W : S128x128.Idx → EReal) (b : S1x128.Idx → EReal)
    (r : Fin 50000) (j : Fin 128) : EReal :=
  (∑ k : Fin 128, A (ix2 r k) * W (ix2 k j)) * n (ix2 r (0 : Fin 1)) + b (ix2 (0 : Fin 1) j)

/-- The whole [50000, 128] array of those entries. -/
def whole (A : S50000x128.Idx → EReal) (n : S50000x1.Idx → EReal) (W : S128x128.Idx → EReal) (b : S1x128.Idx → EReal) :
    S50000x128.Idx → EReal :=
  fun i => entry A n W b ⟨(i 0).val, idx2_lt0 i⟩ ⟨(i 1).val, idx2_lt1 i⟩

theorem zero_offsets : (![0, 0] : Fin 2 → Nat) = fun _ => 0 := funext fun a => by fin_cases a <;> rfl

/-- Where each window's block sits at point `t` (decided over the ten points): the aggregate's, the scale column's
    and the output's blocks are block row `t`; `W` and the bias row are always their one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The input blocks, read at coordinates

Each is stated for arbitrary contents `X` of the window's array, and used at the contents the region finds. -/

/-- The aggregate's block at point `t`: its entry `(p, k)` is entry `(5000 t + p, k)` of the array. -/
theorem read_agg_block (c : Dev nD) (t : Fin cfg0.N) (X : Buf (Elt Ideal) ((c : Thread nD τ).loc (Pipeline.arrRef spec0 0)))
    (y : S5000x128.Idx) (i : S50000x128.Idx)
    (h0 : (i 0).val = t.val * 5000 + (y 0).val) (h1 : (i 1).val = (y 1).val) :
    (((cfg0.win 0).blk t).view.read (Elt Ideal) X : Vec Ideal S5000x128 .f32) y = (X : S50000x128.Idx → EReal) i := by
  obtain ⟨e0, e1, -⟩ := block_indices t
  rw [View.read_apply]
  show (X : S50000x128.Idx → EReal) (((cfg0.win 0).blk t).view.emb y) = (X : S50000x128.Idx → EReal) i
  refine congrArg (X : S50000x128.Idx → EReal) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The scale column's block at point `t`: its entry `(p, 0)` is entry `(5000 t + p, 0)` of the column. -/
theorem read_scale_block (c : Dev nD) (t : Fin cfg0.N) (X : Buf (Elt Ideal) ((c : Thread nD τ).loc (Pipeline.arrRef spec0 1)))
    (y : S5000x1.Idx) (i : S50000x1.Idx)
    (h0 : (i 0).val = t.val * 5000 + (y 0).val) (h1 : (i 1).val = (y 1).val) :
    (((cfg0.win 1).blk t).view.read (Elt Ideal) X : Vec Ideal S5000x1 .f32) y = (X : S50000x1.Idx → EReal) i := by
  obtain ⟨-, -, e0, e1, -⟩ := block_indices t
  rw [View.read_apply]
  show (X : S50000x1.Idx → EReal) (((cfg0.win 1).blk t).view.emb y) = (X : S50000x1.Idx → EReal) i
  refine congrArg (X : S50000x1.Idx → EReal) (funext fun a => Fin.ext ?_)
  match a with
  | ⟨0, _⟩ => show win0_1.index t (0 : Fin 2) * 5000 + 1 * (y 0).val = (i 0).val; rw [e0, h0]; omega
  | ⟨1, _⟩ => show win0_1.index t (1 : Fin 2) * 1 + 1 * (y 1).val = (i 1).val; rw [e1, h1]; omega

/-- `W`'s block at every point is the whole of `W`. -/
theorem read_w_block (c : Dev nD) (t : Fin cfg0.N) (X : Buf (Elt Ideal) ((c : Thread nD τ).loc (Pipeline.arrRef spec0 2)))
    (y : S128x128.Idx) :
    (((cfg0.win 2).blk t).view.read (Elt Ideal) X : Vec Ideal S128x128 .f32) y = (X : S128x128.Idx → EReal) y := by
  obtain ⟨-, -, -, -, e0, e1, -⟩ := block_indices t
  rw [View.read_apply]
  show (X : S128x128.Idx → EReal) (((cfg0.win 2).blk t).view.emb y) = (X : S128x128.Idx → EReal) y
  refine congrArg (X : S128x128.Idx → EReal) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- The bias row's block at every point is the whole bias row. -/
theorem read_bias_block (c : Dev nD) (t : Fin cfg0.N) (X : Buf (Elt Ideal) ((c : Thread nD τ).loc (Pipeline.arrRef spec0 3)))
    (y : S1x128.Idx) :
    (((cfg0.win 3).blk t).view.read (Elt Ideal) X : Vec Ideal S1x128 .f32) y = (X : S1x128.Idx → EReal) y := by
  obtain ⟨-, -, -, -, -, -, e0, e1, -⟩ := block_indices t
  rw [View.read_apply]
  show (X : S1x128.Idx → EReal) (((cfg0.win 3).blk t).view.emb y) = (X : S1x128.Idx → EReal) y
  refine congrArg (X : S1x128.Idx → EReal) (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- The output's block at point `t`, read off ANY contents `X` of the output array: entry `(p, j)` of the block is
    entry `(5000 t + p, j)` of `X`. -/
theorem read_out_block (c : Dev nD) (t : Fin cfg0.N) (X : Buf (Elt Ideal) ((c : Thread nD τ).loc (Pipeline.arrRef spec0 4)))
    (y : S5000x128.Idx) (i : S50000x128.Idx)
    (h0 : (i 0).val = t.val * 5000 + (y 0).val) (h1 : (i 1).val = (y 1).val) :
    (((cfg0.win 4).blk t).view.read (Elt Ideal) X : Vec Ideal S5000x128 .f32) y = (X : S50000x128.Idx → EReal) i := by
  obtain ⟨-, -, -, -, -, -, -, -, e0, e1⟩ := block_indices t
  rw [View.read_apply]
  show (X : S50000x128.Idx → EReal) (((cfg0.win 4).blk t).view.emb y) = (X : S50000x128.Idx → EReal) i
  refine congrArg (X : S50000x128.Idx → EReal) (funext fun a => Fin.ext ?_)
  match a with
  | ⟨0, _⟩ => show win0_4.index t (0 : Fin 2) * 5000 + 1 * (y 0).val = (i 0).val; rw [e0, h0]; omega
  | ⟨1, _⟩ => show win0_4.index t (1 : Fin 2) * 128 + 1 * (y 1).val = (i 1).val; rw [e1, h1]; omega

/-! ## A block's stored value is a block of the whole array -/

/-- If the loaded blocks are rows `5000 tv …` of the aggregate and of the scale column, and the whole of `W` and of the
    bias row, the value the body stores at `y` is the whole array's entry at `i`, `i` being `y` moved down by
    `5000 tv` rows. -/
theorem stored_eq_whole (A : Vec Ideal S5000x128 .f32) (W : Vec Ideal S128x128 .f32) (n : Vec Ideal S5000x1 .f32) (b : Vec Ideal S1x128 .f32)
    (Aw : S50000x128.Idx → EReal) (nw : S50000x1.Idx → EReal) (Ww : S128x128.Idx → EReal) (bw : S1x128.Idx → EReal)
    (tv : ℕ) (y : S5000x128.Idx) (i : S50000x128.Idx)
    (h0 : (i 0).val = tv * 5000 + (y 0).val) (h1 : (i 1).val = (y 1).val)
    (hA : ∀ (y' : S5000x128.Idx) (i' : S50000x128.Idx), (i' 0).val = tv * 5000 + (y' 0).val → (i' 1).val = (y' 1).val → A y' = Aw i')
    (hn : ∀ (y' : S5000x1.Idx) (i' : S50000x1.Idx), (i' 0).val = tv * 5000 + (y' 0).val → (i' 1).val = (y' 1).val → n y' = nw i')
    (hW : ∀ y', W y' = Ww y') (hb : ∀ y', b y' = bw y') :
    k0_pay1 (F := Ideal) A W n b y = whole Aw nw Ww bw i := by
  obtain ⟨p, j, rfl⟩ : ∃ (p : Fin 5000) (j : Fin 128), y = ix2 p j := ⟨y 0, y 1, eq_ix2 y⟩
  have hj : (⟨(i 1).val, idx2_lt1 i⟩ : Fin 128) = j := Fin.ext h1
  rw [Payload.pay_apply]
  unfold whole entry
  rw [hj]
  refine congrArg₂ (fun u v : EReal => u + v) (congrArg₂ (fun u v : EReal => u * v) (Finset.sum_congr rfl fun k _ => ?_) ?_) (hb _)
  · rw [hA (ix2 p k) (ix2 ⟨(i 0).val, idx2_lt0 i⟩ k) h0 rfl, hW]
  · exact hn (ix2 p (0 : Fin 1)) (ix2 ⟨(i 0).val, idx2_lt0 i⟩ (0 : Fin 1)) h0 rfl

end Cert.KernelIdeal.Blocks

end
-- ==== Proof.KernelArray.lean ====
/-
  The kernel's output array, whole.

  Point `t` writes back rows `5000 t … 5000 t + 4999` of the array of row-scaled products (`Blocks.whole`), every row of
  the output lies in exactly the block of the point `r / 5000`, and so after the ten points the output array is that
  whole array, over the aggregate, the scale column, `W` and the bias row as the region finds them.
-/
import proofs.«139861_j44487271252060_2_alg».proof.Proof.KernelBlocks

set_option maxRecDepth 16384

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- WHAT POINT `t` WRITES BACK is block `t` of the whole array of entries, over the arrays the region finds. -/
theorem flushed_eq (c : Dev nD) (t : Fin cfg0.N) :
    (dats m 0 c).flushed 4 t
      = ((cfg0.win 4).blk t).view.read (Elt Ideal)
          (whole (V m c (Pipeline.arrRef spec0 0)) (V m c (Pipeline.arrRef spec0 1)) (V m c (Pipeline.arrRef spec0 2)) (V m c (Pipeline.arrRef spec0 3))) := by
  rw [Cert.KernelIdeal.Value.flushed4]
  unfold out0_4
  rw [View.canon_unit_zero zero_offsets]
  simp only [View.ld_unit_zero (S := S5000x128) zero_offsets, View.ld_unit_zero (S := S128x128) zero_offsets,
    View.ld_unit_zero (S := S5000x1) zero_offsets, View.ld_unit_zero (S := S1x128) zero_offsets]
  funext y
  have ht : t.val < 10 := t.isLt
  have hy0 : (y 0).val < 5000 := (y 0).isLt
  have hy1 : (y 1).val < 128 := (y 1).isLt
  refine Eq.trans ?_ (read_out_block c t _ y (ix2 ⟨t.val * 5000 + (y 0).val, by omega⟩ ⟨(y 1).val, hy1⟩) rfl rfl).symm
  exact stored_eq_whole (iblk m c 0 t) (iblk m c 2 t) (iblk m c 1 t) (iblk m c 3 t)
    (V m c (Pipeline.arrRef spec0 0)) (V m c (Pipeline.arrRef spec0 1)) (V m c (Pipeline.arrRef spec0 2)) (V m c (Pipeline.arrRef spec0 3))
    t.val ((cfg0.win 4).xinj (grid0.coords t) y) (ix2 ⟨t.val * 5000 + (y 0).val, by omega⟩ ⟨(y 1).val, hy1⟩) rfl rfl
    (fun y' i' => read_agg_block c t (V m c (Pipeline.arrRef spec0 0)) y' i')
    (fun y' i' => read_scale_block c t (V m c (Pipeline.arrRef spec0 1)) y' i')
    (fun y' => read_w_block c t (V m c (Pipeline.arrRef spec0 2)) y')
    (fun y' => read_bias_block c t (V m c (Pipeline.arrRef spec0 3)) y')

/-! ## The output's blocks cover the array -/

/-- An entry of the array is in point `t`'s block iff each coordinate is in the block's range on its axis. -/
theorem mem_blk (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v28).slice (win0_4.rect t)).set ↔ _
  rw [View.set_slice_whole, Rect.mem_set_unit]
  exact Iff.rfl

/-- Row `r` is written by the point `r / 5000`. -/
theorem covered (i : S50000x128.Idx) : ∃ t : Fin cfg0.N, (cfg0.win 4).flush t = true ∧ i ∈ ((cfg0.win 4).blk t).view.set := by
  have hi0 : (i 0).val < 50000 := idx2_lt0 i
  have hi1 : (i 1).val < 128 := idx2_lt1 i
  have hN : (i 0).val / 5000 < cfg0.N := by show (i 0).val / 5000 < 10; omega
  obtain ⟨-, -, -, -, -, -, -, -, e0, e1⟩ := block_indices ⟨(i 0).val / 5000, hN⟩
  refine ⟨⟨(i 0).val / 5000, hN⟩, flush0_4 _, ?_⟩
  rw [mem_blk]
  intro a
  match a with
  | ⟨0, _⟩ =>
    show win0_4.index ⟨(i 0).val / 5000, hN⟩ (0 : Fin 2) * 5000 ≤ (i 0).val ∧ (i 0).val < win0_4.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_4.index ⟨(i 0).val / 5000, hN⟩ (1 : Fin 2) * 128 ≤ (i 1).val ∧ (i 1).val < win0_4.index ⟨(i 0).val / 5000, hN⟩ (1 : Fin 2) * 128 + 128
    rw [e1]; omega

/-- THE ARRAY after the run: the whole array of entries, over the arrays the region finds. -/
theorem final (c : Dev nD) :
    (dats m 0 c).arrAt 4 cfg0.N
      = whole (V m c (Pipeline.arrRef spec0 0)) (V m c (Pipeline.arrRef spec0 1)) (V m c (Pipeline.arrRef spec0 2)) (V m c (Pipeline.arrRef spec0 3)) :=
  (dats m 0 c).arrAt_eq_of_cover 4 _ (fun t _ => flushed_eq m c t) covered

end Cert.KernelIdeal.Blocks

end
-- ==== Proof.KernelHost.lean ====
/-
  The arrays the region finds.

  Before the kernel is launched the program computes on the host, operation for operation, what the reference
  computes before its matrix product: the two degree vectors, the two normalisations, the source-normalised
  features, the gather and the scatter-add that make the aggregate.  It then sets the destination normalisation up as
  a [50000, 1] column and the bias up as a [1, 128] row.  So the kernel's four operands are: the reference's
  aggregate; the reference's destination normalisation as a column; `W`; and the bias as a row.
-/
import proofs.«139861_j44487271252060_2_alg».proof.Proof.Gen.KernelIdeal.Frame
import proofs.«139861_j44487271252060_2_alg».proof.Proof.Gen.ReferenceIdeal.Read

noncomputable section

namespace Cert.KernelIdeal.Found

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The normalisation of a degree count, as the host computes it from an index vector `x`: scatter-add ones at the
    indices, clip below at `1.0`, raise to the power `-0.5`. -/
def degNorm (x : (⟨S800000, .i32⟩ : BufTy).Contents (Elt Ideal)) : FVec Ideal S50000 .f32 :=
  Host.powf (F := Ideal)
    (maximumf (broadcastInDim S50000 ![] bcast_S_S50000 (id (constant (F := Ideal) S_ .f32 0x3F800000#32)))
      (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 x)
        (broadcastInDim S800000 ![] bcast_S_S800000 (constant (F := Ideal) S_ .f32 0x3F800000#32))))
    (broadcastInDim S50000 ![] bcast_S_S50000 (constant (F := Ideal) S_ .f32 0xBF000000#32))

/-- The aggregate, as the host computes it: the features `x0` with each row scaled by the source normalisation, the
    rows gathered at the sources `x1` (a negative index counted from the end), and scatter-added at the
    destinations `x2`. -/
def aggregate (x0 : (⟨S50000x128, .f32⟩ : BufTy).Contents (Elt Ideal)) (x1 x2 : (⟨S800000, .i32⟩ : BufTy).Contents (Elt Ideal)) :
    FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 x2)
    (Host.gather gather_S50000x128_S800000x1_S800000x128_1_0_n_n_0_1_1128
      (mulf x0 (broadcastInDim S50000x128 ![0, 1] bcast_S50000x1_S50000x128_0_1 (broadcastInDim S50000x1 ![0] bcast_S50000_S50000x1_0 (degNorm x1))))
      (broadcastInDim S800000x1 ![0] bcast_S800000_S800000x1_0
        (select (cmpi .slt x1 (broadcastInDim S800000 ![] bcast_S_S800000 (constantI S_ 32 0#32)))
          (addi x1 (broadcastInDim S800000 ![] bcast_S_S800000 (constantI S_ 32 50000#32))) x1)))

/-! ## Congruences, first order

One operand of a host operation replaced by an equal one. -/

theorem scatterAdd_updates_congr {s si u : Shape} {φ : FTy} {w : Nat} (d : ScatterDims s si u) (x : FVec Ideal s φ) (idx : IVec si w)
    {p q : FVec Ideal u φ} (h : p = q) : Host.scatterAdd d x idx p = Host.scatterAdd d x idx q := h ▸ rfl

theorem gather_operand_congr {s si t : Shape} {α : Type} {w : Nat} (d : GatherDims s si t) (idx : IVec si w)
    {p q : s.Idx → α} (h : p = q) : Host.gather d p idx = Host.gather d q idx := h ▸ rfl

theorem mulf_right_congr {s : Shape} {φ : FTy} (x : FVec Ideal s φ) {p q : FVec Ideal s φ} (h : p = q) : mulf x p = mulf x q := h ▸ rfl

theorem broadcastInDim_congr {s t : Shape} {α : Type} (dims : Fin s.rank → Fin t.rank) (hb : s.BroadcastsInDim t dims)
    {p q : s.Idx → α} (h : p = q) : broadcastInDim t dims hb p = broadcastInDim t dims hb q := h ▸ rfl

theorem powf_base_congr {s : Shape} {φ : FTy} (y : FVec Ideal s φ) {p q : FVec Ideal s φ} (h : p = q) :
    Host.powf p y = Host.powf q y := h ▸ rfl

theorem maximumf_congr {s : Shape} {φ : FTy} {p p' q q' : FVec Ideal s φ} (h : p = p') (h' : q = q') :
    maximumf p q = maximumf p' q' := h ▸ h' ▸ rfl

theorem shapeCast_congr {s t : Shape} {α : Type} (hc : s.ShapeCasts t) {p q : s.Idx → α} (h : p = q) :
    shapeCast t p hc = shapeCast t q hc := h ▸ rfl

/-! ## What the region finds

Each array is read off the host operations before the region; the operations of the clip, which the program runs
through typed references, are taken apart one operation at a time. -/

/-- The bias row the region finds is the bias argument set up as a [1, 128] row. -/
theorem found_bias (c : Dev nD) :
    (V m c (Pipeline.arrRef spec0 3) : S1x128.Idx → EReal)
      = shapeCast S1x128 (m ((c : Thread nD τ).loc main_arg4) : S128.Idx → EReal) Facts₀.shapeCasts_S128_S1x128 := by
  show (V m c main_v27 : S1x128.Idx → EReal) = _
  dsimp only [V]
  simp only [hostOps0, hostOps0_1, hostOps0_2, hostOps0_3, hostOps0_4, List.flatten_cons, List.flatten_nil, List.append_nil,
    List.cons_append, List.nil_append]
  after_results_simp
  rfl

/-- `W` is as launched. -/
theorem found_w (c : Dev nD) :
    (V m c (Pipeline.arrRef spec0 2) : S128x128.Idx → EReal) = (m ((c : Thread nD τ).loc main_arg3) : S128x128.Idx → EReal) :=
  V_main_arg3 m c

/-- The scale column the region finds is the destination normalisation set up as a [50000, 1] column. -/
theorem found_scale (c : Dev nD) :
    (V m c (Pipeline.arrRef spec0 1) : S50000x1.Idx → EReal)
      = shapeCast S50000x1 (degNorm (m ((c : Thread nD τ).loc main_arg2))) Facts₀.shapeCasts_S50000_S50000x1 := by
  unfold degNorm
  show (V m c main_v26 : S50000x1.Idx → EReal) = _
  dsimp only [V]
  simp only [hostOps0, hostOps0_1, hostOps0_2, hostOps0_3, hostOps0_4, List.flatten_cons, List.flatten_nil, List.append_nil,
    List.cons_append, List.nil_append]
  after_results_simp
  refine shapeCast_congr _ ?_
  refine powf_base_congr _ ?_
  refine maximumf_congr ?_ ?_
  · rfl
  · rfl

/-- The aggregate the region finds is the aggregate of the arguments. -/
theorem found_agg (c : Dev nD) :
    (V m c (Pipeline.arrRef spec0 0) : S50000x128.Idx → EReal)
      = aggregate (m ((c : Thread nD τ).loc main_arg0)) (m ((c : Thread nD τ).loc main_arg1)) (m ((c : Thread nD τ).loc main_arg2)) := by
  unfold aggregate degNorm
  show (V m c main_v25 : S50000x128.Idx → EReal) = _
  dsimp only [V]
  simp only [hostOps0, hostOps0_1, hostOps0_2, hostOps0_3, hostOps0_4, List.flatten_cons, List.flatten_nil, List.append_nil,
    List.cons_append, List.nil_append]
  after_results_simp
  refine scatterAdd_updates_congr _ _ _ ?_
  refine gather_operand_congr _ _ ?_
  refine mulf_right_congr _ ?_
  refine broadcastInDim_congr _ _ ?_
  refine broadcastInDim_congr _ _ ?_
  refine powf_base_congr _ ?_
  refine maximumf_congr ?_ ?_
  · rfl
  · rfl

/-! ## The same stages in the reference's vocabulary

The reference's program spells the same operations over its own copies of the shapes and dimension records. -/

open Cert.ReferenceIdeal.Read in
/-- The source normalisation is the reference's. -/
theorem degNorm_eq_src (x : (⟨S800000, .i32⟩ : BufTy).Contents (Elt Ideal)) :
    degNorm x = Cert.ReferenceIdeal.Read.val_main_v9 (F := Ideal) x := by
  unfold degNorm val_main_v9 val_main_v7 val_main_v8 val_main_call0_v1 val_main_call0_v0 val_main_cst_2 val_main_cst_3
    val_main_v3 val_main_v1 val_main_v2 val_main_v0 val_main_cst val_main_cst_0
  rfl

open Cert.ReferenceIdeal.Read in
/-- The destination normalisation is the reference's. -/
theorem degNorm_eq_dst (x : (⟨S800000, .i32⟩ : BufTy).Contents (Elt Ideal)) :
    degNorm x = Cert.ReferenceIdeal.Read.val_main_v12 (F := Ideal) x := by
  unfold degNorm val_main_v12 val_main_v10 val_main_v11 val_main_call1_v1 val_main_call1_v0 val_main_cst_4 val_main_cst_5
    val_main_v6 val_main_v4 val_main_v5 val_main_v0 val_main_cst val_main_cst_1
  rfl

open Cert.ReferenceIdeal.Read in
/-- The aggregate is the reference's. -/
theorem aggregate_eq (x0 : (⟨S50000x128, .f32⟩ : BufTy).Contents (Elt Ideal)) (x1 x2 : (⟨S800000, .i32⟩ : BufTy).Contents (Elt Ideal)) :
    aggregate x0 x1 x2 = Cert.ReferenceIdeal.Read.val_main_v25 (F := Ideal) x0 x1 x2 := by
  unfold aggregate
  rw [degNorm_eq_src]
  unfold val_main_v25 val_main_v23 val_main_v24 val_main_v22 val_main_v21 val_main_v20 val_main_v19 val_main_v18 val_main_v17
    val_main_v16 val_main_c val_main_c_6 val_main_cst_7 val_main_v15 val_main_v14 val_main_v13
  rfl

end Cert.KernelIdeal.Found

end
-- ==== Proof.LibScaleSum.lean ====
/-
  A non-negative finite scale moved across a finite sum of extended reals, and a clipped power that is such a scale.

  The extended reals are not a ring: a product distributes over a sum only under side conditions, because
  `⊤ + ⊥ = ⊥` while a negative or infinite factor can turn the two summands round.  A factor `c` with `0 ≤ c` and
  `c ≠ ⊤` does distribute over every sum, finite or not in its terms, and so it may be moved from outside a
  contraction `(∑ₖ aₖ · wₖ) · c` onto one factor of each term, `∑ₖ (aₖ · c) · wₖ`: the step between normalising
  the rows of a matrix product after the product and normalising the rows of its left factor before it.

  The scale met with in degree normalisation is `(max 1 d) ^ (-1/2)`.  Whatever `d` is — a count, or `⊤` — the base
  is at least `1`, and the power is a non-negative real: `⊤ ^ (-1/2) = 0`, and a real base `x ≥ 1` gives `x ^ (-1/2)`
  in `(0, 1]`.
-/
import Idealize.ShloMosaic.PureOps.Ideal

noncomputable section

namespace Cert.ScaleSum

open Idealize.ShloMosaic

/-- A factor `c` with `0 ≤ c`, `c ≠ ⊤` distributes over a finite sum of extended reals from the right. -/
theorem sum_mul_of_nonneg_of_ne_top {K : Type*} (s : Finset K) (f : K → EReal) {c : EReal} (h0 : 0 ≤ c) (ht : c ≠ ⊤) :
    (∑ k ∈ s, f k) * c = ∑ k ∈ s, f k * c := by
  classical
  induction s using Finset.induction_on with
  | empty => simp
  | insert a s ha ih =>
    rw [Finset.sum_insert ha, Finset.sum_insert ha, EReal.right_distrib_of_nonneg_of_ne_top h0 ht, ih]

/-- The scale moved across a contraction: `(∑ₖ aₖ · wₖ) · c = ∑ₖ (aₖ · c) · wₖ` for `0 ≤ c`, `c ≠ ⊤`. -/
theorem contraction_mul_scale {K : Type*} [Fintype K] (a w : K → EReal) {c : EReal} (h0 : 0 ≤ c) (ht : c ≠ ⊤) :
    (∑ k, a k * w k) * c = ∑ k, (a k * c) * w k := by
  rw [sum_mul_of_nonneg_of_ne_top _ _ h0 ht]
  exact Finset.sum_congr rfl fun k _ => mul_right_comm _ _ _

/-- The f32 pattern of `1.0` denotes `1`. -/
theorem ofBits_one : Ideal.ofBits .f32 0x3F800000#32 = 1 := by
  simp [Ideal.ofBits, Ideal.ieee, -EReal.coe_mul]; norm_num

/-- The f32 pattern of `-0.5` denotes the real `-1/2`. -/
theorem ofBits_neg_half : Ideal.ofBits .f32 0xBF000000#32 = ((-(1 / 2) : ℝ) : EReal) := by
  simp [Ideal.ofBits, Ideal.ieee, -EReal.coe_mul]; norm_num

/-- A base of at least `1` raised to a negative real is a non-negative extended real other than `⊤`. -/
theorem pow_nonneg_ne_top_of_one_le {x : EReal} (hx : 1 ≤ x) {y : ℝ} (hy : y < 0) :
    0 ≤ Ideal.pow x (y : EReal) ∧ Ideal.pow x (y : EReal) ≠ ⊤ := by
  induction x using EReal.rec with
  | bot => exact absurd hx (not_le.mpr (by exact_mod_cast EReal.bot_lt_coe 1))
  | top =>
    have h1 : ¬ (0 : EReal) < (y : EReal) := by
      rw [not_lt]; exact_mod_cast hy.le
    have h2 : ¬ ((y : EReal) = 0) := by
      exact_mod_cast hy.ne
    rw [Ideal.pow_top, if_neg h1, if_neg h2]
    exact ⟨le_refl _, EReal.zero_ne_top⟩
  | coe r =>
    have hr : (1 : ℝ) ≤ r := by exact_mod_cast hx
    rw [Ideal.pow_coe_coe]
    refine ⟨?_, EReal.coe_ne_top _⟩
    exact_mod_cast Real.rpow_nonneg (le_trans zero_le_one hr) y

/-- The degree normalisation `(max 1.0 d) ^ (-0.5)`, spelt with the f32 patterns, is a scale that distributes. -/
theorem clipped_pow_scale (d : EReal) :
    0 ≤ Ideal.pow (max (Ideal.ofBits .f32 0x3F800000#32) d) (Ideal.ofBits .f32 0xBF000000#32)
    ∧ Ideal.pow (max (Ideal.ofBits .f32 0x3F800000#32) d) (Ideal.ofBits .f32 0xBF000000#32) ≠ ⊤ := by
  rw [ofBits_one, ofBits_neg_half]
  exact pow_nonneg_ne_top_of_one_le (le_max_left _ _) (by norm_num)

end Cert.ScaleSum

end
-- ==== Proof.RefValue.lean ====
/-
  The reference's result, read at one entry.

  The reference forms the aggregate `agg` (the scatter-add of the gathered, source-normalised rows), scales its
  rows by the destination normalisation `norm`, multiplies by `W` and adds the bias `b`.  Read at row `r` and
  column `j`, with the aggregate and the normalisation left as the arrays the earlier operations produce, the
  result is

      (∑ₖ (agg[r, k] · norm[r]) · W[k, j]) + b[j].

  The normalisation `norm[r]` is `(max 1 deg[r]) ^ (-1/2)`, `deg` the scatter-add of ones over the destinations:
  whatever the degree is, the base is at least `1`, so `norm[r]` is a non-negative extended real other than `⊤`.
-/
import proofs.«139861_j44487271252060_2_alg».proof.Proof.Gen.ReferenceIdeal.Read
import proofs.«139861_j44487271252060_2_alg».proof.Proof.LibScaleSum

noncomputable section

namespace Cert.ReferenceIdeal.RefValue

open Cert.ReferenceIdeal Cert.ReferenceIdeal.Gen Cert.ReferenceIdeal.Read Idealize.ShloMosaic Idealize.ShloMosaic.ValueIdx

/-- The contraction's left operand at output entry `(r, j)` and contraction index `k` is entry `(r, k)`. -/
theorem lidx_eq (r : Fin 50000) (j k : Fin 128) : lidx_main_v29 (ix2 r j) k = ix2 r k :=
  funext fun a => Fin.ext (by match a with | ⟨0, _⟩ => rfl | ⟨1, _⟩ => rfl)

/-- Its right operand there is entry `(k, j)`. -/
theorem ridx_eq (r : Fin 50000) (j k : Fin 128) : ridx_main_v29 (ix2 r j) k = ix2 k j :=
  funext fun a => Fin.ext (by match a with | ⟨0, _⟩ => rfl | ⟨1, _⟩ => rfl)

/-- The normalisation vector, set up as a column and spread along the rows, is read at its entry `r`. -/
theorem scale_idx_eq (r : Fin 50000) (k : Fin 128) : idx_main_v26 (idx_main_v27 (ix2 r k)) = ix1 r :=
  funext fun a => Fin.ext (by match a with | ⟨0, _⟩ => rfl)

/-- The bias vector, set up as a row and spread down the columns, is read at its entry `j`. -/
theorem bias_idx_eq (r : Fin 50000) (j : Fin 128) : idx_main_v30 (idx_main_v31 (ix2 r j)) = ix1 j :=
  funext fun a => Fin.ext (by match a with | ⟨0, _⟩ => rfl)

/-- The reference's result at `(r, j)`: the contraction over `k` of the scaled aggregate row with column `j` of
    `W`, plus the bias. -/
theorem result_apply (x0 : (⟨S50000x128, .f32⟩ : BufTy).Contents (Elt Ideal)) (x1 x2 : (⟨S800000, .i32⟩ : BufTy).Contents (Elt Ideal))
    (x3 : (⟨S128x128, .f32⟩ : BufTy).Contents (Elt Ideal)) (x4 : (⟨S128, .f32⟩ : BufTy).Contents (Elt Ideal))
    (r : Fin 50000) (j : Fin 128) :
    val_main_v32 (F := Ideal) x0 x1 x2 x3 x4 (ix2 r j)
      = (∑ k : Fin 128, (val_main_v25 (F := Ideal) x0 x1 x2 (ix2 r k) * val_main_v12 (F := Ideal) x2 (ix1 r)) * x3 (ix2 k j))
        + x4 (ix1 j) := by
  rw [val_main_v32_apply, val_main_v29_apply, val_main_v31_apply, val_main_v30_apply, bias_idx_eq, Ideal.addf_def]
  refine congrArg (· + x4 (ix1 j)) (Finset.sum_congr rfl fun k _ => ?_)
  rw [lidx_eq, ridx_eq, val_main_v28_apply, val_main_v27_apply, val_main_v26_apply, scale_idx_eq, Ideal.mulf_def]

/-- The destination normalisation at row `r` is non-negative and not `⊤`: a base of at least `1` to the power `-1/2`. -/
theorem scale_nonneg_ne_top (x2 : (⟨S800000, .i32⟩ : BufTy).Contents (Elt Ideal)) (r : Fin 50000) :
    0 ≤ val_main_v12 (F := Ideal) x2 (ix1 r) ∧ val_main_v12 (F := Ideal) x2 (ix1 r) ≠ ⊤ := by
  rw [val_main_v12_apply, val_main_v10_apply, val_main_call1_v1_apply, val_main_call1_v0_apply, val_main_cst_4_apply,
    val_main_v11_apply, val_main_cst_5_apply]
  simp only [Ideal.hostPowf_def, Ideal.maximumf_def, Ideal.ofBits_def]
  exact Cert.ScaleSum.clipped_pow_scale _

end Cert.ReferenceIdeal.RefValue

end
-- ==== Proof.LibColumns.lean ====
/-
  Columns of a rank-two array, as vectors.

  A program that works on an [n, w] array column by column cuts column `k` out as an [n, 1] slice and flattens it
  to a vector of `n` entries, and sets a computed vector of `n` entries up again as an [n, 1] column before putting
  it in its place. Read at a row `r`, the first is the array's entry (r, k) and the second is the vector's entry
  `r`: the row-major position of (r, 0) among [n, 1] is `r`, the position of `r` among [n].
-/
import Idealize.ShloMosaic.Lib.Pipeline.Value
import Idealize.ShloMosaic.Lib.ValueIdx

namespace Cert.TriInv

open Idealize.ShloMosaic Idealize.ShloMosaic.ValueIdx

variable {α : Type}

/-- Column `k` of an [n, w] array, cut out as an [n, 1] slice and flattened, read at row `r`: the entry (r, k). -/
theorem column_apply (n w k : Nat) (hk : k < w) (x : (⟨2, ![n, w]⟩ : Shape).Idx → α)
    (hs : (⟨2, ![n, w]⟩ : Shape).Slices ![0, k] ⟨2, ![n, 1]⟩) (hc : (⟨2, ![n, 1]⟩ : Shape).ShapeCasts ⟨1, ![n]⟩)
    (r : Fin n) :
    shapeCast ⟨1, ![n]⟩ (extractStridedSlice ⟨2, ![n, 1]⟩ ![0, k] x hs) hc (ix1 r) = x (ix2 r ⟨k, hk⟩) := by
  refine (shapeCast_apply _ hc (ix1 r) (ix2 r (0 : Fin 1)) ?_).trans ?_
  · rw [Shape.rowMajor_val_two, Shape.rowMajor_val_one]
    show r.val * 1 + 0 = r.val
    omega
  · refine extractStridedSlice_apply ![0, k] x hs (ix2 r (0 : Fin 1)) (ix2 r ⟨k, hk⟩) fun a => ?_
    match a with
    | ⟨0, _⟩ => show r.val = 0 + r.val; omega
    | ⟨1, _⟩ => show k = k + 0; omega

/-- A vector of `n` entries set up as an [n, 1] column, read at (r, 0): the vector's entry `r`. -/
theorem asColumn_apply (n : Nat) (w : (⟨1, ![n]⟩ : Shape).Idx → α)
    (hc : (⟨1, ![n]⟩ : Shape).ShapeCasts ⟨2, ![n, 1]⟩) (r : Fin n) (z : Fin 1) :
    shapeCast ⟨2, ![n, 1]⟩ w hc (ix2 r z) = w (ix1 r) := by
  refine shapeCast_apply w hc (ix2 r z) (ix1 r) ?_
  rw [Shape.rowMajor_val_two, Shape.rowMajor_val_one]
  have hz : z.val < 1 := z.isLt
  show r.val = r.val * 1 + z.val
  omega

end Cert.TriInv
-- ==== Proof.Bridge.lean ====
/-
  The two results are one array.

  Over one aggregate `agg`, one normalisation `norm`, the matrix `W` and the bias `b`:

    reference   (∑ₖ (agg[r, k] · norm[r]) · W[k, j]) + b[j]            rows scaled before the product
    kernel      (∑ₖ agg[r, k] · W[k, j]) · normcol[r, 0] + brow[0, j]   rows scaled after it

  where `normcol` is `norm` set up as a [50000, 1] column and `brow` is `b` set up as a [1, 128] row.  The column's
  entry `(r, 0)` is `norm[r]` and the row's entry `(0, j)` is `b[j]`; and `norm[r]`, being non-negative and not `⊤`, may
  be moved across the contraction.  So the reference's result is the kernel's whole array.
-/
import proofs.«139861_j44487271252060_2_alg».proof.Proof.RefValue
import proofs.«139861_j44487271252060_2_alg».proof.Proof.KernelBlocks
import proofs.«139861_j44487271252060_2_alg».proof.Proof.LibColumns
import Idealize.ShloMosaic.Lib.ValueLayout

noncomputable section

namespace Cert.Bridge

open Idealize.ShloMosaic Idealize.ShloMosaic.ValueIdx
open Cert.ReferenceIdeal.Read

/-- The reference's result, as the kernel's whole array over the reference's own aggregate and normalisation. -/
theorem reference_eq_whole (x0 : (⟨Cert.ReferenceIdeal.S50000x128, .f32⟩ : BufTy).Contents (Elt Ideal))
    (x1 x2 : (⟨Cert.ReferenceIdeal.S800000, .i32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal)) :
    val_main_v32 (F := Ideal) x0 x1 x2 x3 x4
      = Cert.KernelIdeal.Blocks.whole (val_main_v25 (F := Ideal) x0 x1 x2)
          (shapeCast Cert.KernelIdeal.S50000x1 (val_main_v12 (F := Ideal) x2) Cert.KernelIdeal.Facts₀.shapeCasts_S50000_S50000x1)
          x3
          (shapeCast Cert.KernelIdeal.S1x128 x4 Cert.KernelIdeal.Facts₀.shapeCasts_S128_S1x128) := by
  funext i
  obtain ⟨r, j, rfl⟩ : ∃ (r : Fin 50000) (j : Fin 128), i = ix2 r j := ⟨i 0, i 1, eq_ix2 i⟩
  obtain ⟨h0, ht⟩ := Cert.ReferenceIdeal.RefValue.scale_nonneg_ne_top x2 r
  rw [Cert.ReferenceIdeal.RefValue.result_apply]
  show _ = (∑ k : Fin 128, val_main_v25 (F := Ideal) x0 x1 x2 (ix2 r k) * x3 (ix2 k j))
        * shapeCast Cert.KernelIdeal.S50000x1 (val_main_v12 (F := Ideal) x2) Cert.KernelIdeal.Facts₀.shapeCasts_S50000_S50000x1 (ix2 r (0 : Fin 1))
      + shapeCast Cert.KernelIdeal.S1x128 x4 Cert.KernelIdeal.Facts₀.shapeCasts_S128_S1x128 (ix2 (0 : Fin 1) j)
  rw [Cert.TriInv.asColumn_apply, shapeCast_a_1a_apply, Cert.ScaleSum.contraction_mul_scale _ _ h0 ht]

end Cert.Bridge

end
-- ==== Proof.lean ====
/-
  A graph convolution with both-sided degree normalisation: the kernel and its reference compute one function.

  From features `x` [50000, 128], edge sources and destinations `src`, `dst` [800000], a matrix `W` [128, 128] and a
  bias `b` [128], both programs first form, with the same host operations in the same order,

    norm_src = (max 1 (number of edges leaving a node)) ^ (-1/2),
    norm_dst = (max 1 (number of edges entering a node)) ^ (-1/2),
    agg      = the scatter-add, at the destinations, of the rows of `x · norm_src` gathered at the sources.

  The reference then returns `(agg · norm_dst) W + b`: the rows of `agg` are scaled before the matrix product.  The
  kernel hands `agg`, `norm_dst` as a column, `W` and `b` as a row to a Pallas call over ten blocks of 5000 rows, which
  computes `(agg W) · norm_dst + b`: the rows are scaled after the product (the product in bf16 with an f32
  accumulator, which on the extended reals is the exact product).  Entry `(r, j)` is

    reference   (∑ₖ (agg[r, k] · norm_dst[r]) · W[k, j]) + b[j]
    kernel      (∑ₖ agg[r, k] · W[k, j]) · norm_dst[r] + b[j].

  On the extended reals a factor may be moved across a sum only under a side condition; here it holds whatever the
  inputs are: the base `max 1 d` is at least `1`, so `norm_dst[r]` is a non-negative real (`⊤ ^ (-1/2) = 0`), and a
  non-negative finite factor distributes over every sum.  The precondition (finite float inputs) is not used.

  The modules: LibScaleSum (the factor across the sum; the power of a clipped base), RefValue (the reference's result
  at an entry), Payload (the kernel body's stored value at an entry of a block), KernelBlocks and KernelArray (the
  output array from its ten blocks), KernelHost (the operands the Pallas call finds, as terms of the arguments),
  Bridge (the two entry formulas are one), and here the five claims.
-/
import proofs.«139861_j44487271252060_2_alg».proof.Defs
import proofs.«139861_j44487271252060_2_alg».proof.Proof.Gen.Kernel
import proofs.«139861_j44487271252060_2_alg».proof.Proof.Gen.Kernel.Skeleton
import proofs.«139861_j44487271252060_2_alg».proof.Proof.Gen.Kernel.Launch
import proofs.«139861_j44487271252060_2_alg».proof.Proof.Gen.Kernel.Points
import proofs.«139861_j44487271252060_2_alg».proof.Proof.Gen.Kernel.Frame
import proofs.«139861_j44487271252060_2_alg».proof.Proof.Gen.KernelIdeal
import proofs.«139861_j44487271252060_2_alg».proof.Proof.Gen.KernelIdeal.Skeleton
import proofs.«139861_j44487271252060_2_alg».proof.Proof.Gen.KernelIdeal.Launch
import proofs.«139861_j44487271252060_2_alg».proof.Proof.Gen.KernelIdeal.Points
import proofs.«139861_j44487271252060_2_alg».proof.Proof.Gen.KernelIdeal.Frame
import proofs.«139861_j44487271252060_2_alg».proof.Proof.Gen.ReferenceIdeal
import proofs.«139861_j44487271252060_2_alg».proof.Proof.Gen.Pre_finite_inputs
import proofs.«139861_j44487271252060_2_alg».proof.Proof.Gen.KernelIdeal.Value
import proofs.«139861_j44487271252060_2_alg».proof.Proof.Gen.ReferenceIdeal.Run
import proofs.«139861_j44487271252060_2_alg».proof.Proof.Gen.ReferenceIdeal.Read
import proofs.«139861_j44487271252060_2_alg».proof.Proof.KernelArray
import proofs.«139861_j44487271252060_2_alg».proof.Proof.KernelHost
import proofs.«139861_j44487271252060_2_alg».proof.Proof.Bridge
import Idealize.ShloMosaic.Adequacy
import Idealize.ShloMosaic.Init

noncomputable section

namespace Cert.Proof

open Idealize.ShloMosaic Idealize.SL.Sem Idealize.ShloMosaic.TcCoe

/-! ## The kernel's run, with its result named -/

section KernelRun

open Cert.KernelIdeal Cert.KernelIdeal.Gen

variable (m : (ℓ : Loc nD τ sig) → Buf (Elt Ideal) ℓ) (ρ : Dev nD → PrngReg)

/-- The common result on device `c`: the array of row-scaled products with bias, over the aggregate and the
    destination normalisation of the arguments, `W` and the bias. -/
def result (c : Dev nD) : S50000x128.Idx → EReal :=
  Blocks.whole
    (Found.aggregate (m ((c : Thread nD τ).loc main_arg0)) (m ((c : Thread nD τ).loc main_arg1)) (m ((c : Thread nD τ).loc main_arg2)))
    (shapeCast S50000x1 (Found.degNorm (m ((c : Thread nD τ).loc main_arg2))) Facts₀.shapeCasts_S50000_S50000x1)
    (m ((c : Thread nD τ).loc main_arg3))
    (shapeCast S1x128 (m ((c : Thread nD τ).loc main_arg4) : S128.Idx → EReal) Facts₀.shapeCasts_S128_S1x128)

/-- After the ten points the output array is the common result. -/
theorem output_eq_result (c : Dev nD) : (dats m 0 c).arrAt 4 cfg0.N = result m c := by
  rw [Blocks.final, Found.found_agg, Found.found_scale, Found.found_w, Found.found_bias]
  rfl

/-- Every weakly fair execution of the idealized kernel terminates with the output at the common result and the
    arguments unchanged. -/
theorem kernel_run : θ_run defs (onTc (τ := τ) (main (F := Ideal))) ⟨m, fun _ => 0, ρ⟩ fun r => ∀ c : Dev nD,
      r.2.mem ((c : Thread nD τ).loc main_v28) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (output_eq_result m c), (h c).2⟩)
    (Cert.KernelIdeal.Value.run_blocks m ρ)

end KernelRun

/-! ## The claims -/

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

/-- From memories agreeing on the arguments both runs end at the common result: the reference's term is its last
    stage, that stage is the whole array over the reference's own aggregate and normalisation (the factor moved across
    the contraction), and those are the kernel's aggregate and normalisation of the same arguments. -/
theorem algebraic : Cert.algebraic_KernelIdeal_ReferenceIdeal := by
  intro m ρ m' ρ' _ hagree
  refine ⟨fun c => result m c, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.Bridge.reference_eq_whole,
    (hagree c).1, (hagree c).2.1, (hagree c).2.2.1, (hagree c).2.2.2.1, (hagree c).2.2.2.2,
    ← Cert.KernelIdeal.Found.aggregate_eq, ← Cert.KernelIdeal.Found.degNorm_eq_dst]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
